-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S2048x2048 : Shape := ⟨2, ![2048, 2048]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S1x256 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x2048x256 .f32) (main_arg1 : IVec S2048x2048 32) (main_arg2 : FVec F S256x256 .f32) (main_arg3 : FVec F S256 .f32) (main_arg4 : FVec F S256x256 .f32) (main_arg5 : FVec F S256 .f32) (main_arg6 : FVec F S1x256 .f32) (main_arg7 : FVec F S1 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S8x2048x256 : Shape := ⟨3, ![8, 2048, 256]⟩
abbrev S2048x2048 : Shape := ⟨2, ![2048, 2048]⟩
abbrev S256x256 : Shape := ⟨2, ![256, 256]⟩
abbrev S256 : Shape := ⟨1, ![256]⟩
abbrev S1x256 : Shape := ⟨2, ![1, 256]⟩
abbrev S1 : Shape := ⟨1, ![1]⟩
abbrev S8x2048x1 : Shape := ⟨3, ![8, 2048, 1]⟩
abbrev S1x512x256 : Shape := ⟨3, ![1, 512, 256]⟩
abbrev S1x512x1 : Shape := ⟨3, ![1, 512, 1]⟩
abbrev S512x256 : Shape := ⟨2, ![512, 256]⟩
abbrev S512 : Shape := ⟨1, ![512]⟩
abbrev S512x1 : Shape := ⟨2, ![512, 1]⟩
abbrev S1x1 : Shape := ⟨2, ![1, 1]⟩
abbrev S8x2048x2048 : Shape := ⟨3, ![8, 2048, 2048]⟩
abbrev S1x256x256 : Shape := ⟨3, ![1, 256, 256]⟩
abbrev S256x2048 : Shape := ⟨2, ![256, 2048]⟩
abbrev S1x256x2048 : Shape := ⟨3, ![1, 256, 2048]⟩
abbrev S1x2048x256 : Shape := ⟨3, ![1, 2048, 256]⟩
abbrev S2048x256 : Shape := ⟨2, ![2048, 256]⟩

abbrev nBuf : Space → Nat
  | .hbm => 15
  | .vmem => 21
  | .smem => 0
  | _ => 0

abbrev bufTy : (tb : Table) → Fin (tcTables nBuf tb) → BufTy
  | .hbm, ⟨0, _⟩ => ⟨S8x2048x256, .f32⟩
  | .hbm, ⟨1, _⟩ => ⟨S2048x2048, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S256x256, .bf16⟩
  | .hbm, ⟨9, _⟩ => ⟨S256x256, .bf16⟩
  | .hbm, ⟨10, _⟩ => ⟨S1x256, .bf16⟩
  | .hbm, ⟨11, _⟩ => ⟨S8x2048x256, .bf16⟩
  | .hbm, ⟨12, _⟩ => ⟨S8x2048x256, .bf16⟩
  | .hbm, ⟨13, _⟩ => ⟨S8x2048x1, .f32⟩
  | .hbm, ⟨14, _⟩ => ⟨S8x2048x2048, .f32⟩
  | .local _ .vmem, ⟨0, _⟩ => ⟨S1x512x256, .f32⟩
  | .local _ .vmem, ⟨1, _⟩ => ⟨S1x512x256, .f32⟩
  | .local _ .vmem, ⟨2, _⟩ => ⟨S256x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S1x256, .bf16⟩
  | .local _ .vmem, ⟨7, _⟩ => ⟨S1, .f32⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x1, .f32⟩
  | .local _ .vmem, ⟨13, _⟩ => ⟨S1x512x1, .f32⟩
  | .local _ .vmem, ⟨14, _⟩ => ⟨S1x256x256, .bf16⟩
  | .local _ .vmem, ⟨15, _⟩ => ⟨S1x256x256, .bf16⟩
  | .local _ .vmem, ⟨16, _⟩ => ⟨S8x2048x256, .bf16⟩
  | .local _ .vmem, ⟨17, _⟩ => ⟨S256x2048, .i32⟩
  | .local _ .vmem, ⟨18, _⟩ => ⟨S256x2048, .i32⟩
  | .local _ .vmem, ⟨19, _⟩ => ⟨S1x256x2048, .f32⟩
  | .local _ .vmem, ⟨20, _⟩ => ⟨S1x256x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![8, 8], ![false, false]⟩

def k1_off1 (i : grid1.Coords) : Fin 3 → Nat :=
  let arg1 : BitVec 32 := BitVec.ofNat 32 (i 1).val
  let v2 : Index := Scalar.indexCast arg1
  let c0_2 : Index := 0#32
  let c0_3 : Index := 0#32
  ![v2.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x256_S512 : S512x256.Reduces [1] S512
  shapeCasts_S512_S512x1 : S512.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  h_S1x2048x256 : 0 < S1x2048x256.numel
  shapeCasts_S1x2048x256_S2048x256 : S1x2048x256.ShapeCasts S2048x256
  inb_S256x2048_S256x2048_0_0 : ∀ a, (![0, 0] : Fin 2 → Nat) a + S256x2048.size a ≤ S256x2048.size a
  h_S256x2048 : 0 < S256x2048.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S512x256_S256x256_S512x256_1_1_0_0_n_n_wf : DotDims.WF S512x256 S256x256 S512x256 [1] [1] [0] [0] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .bf16 = 32 ∨ (Rect.block (s := S1x256) S1x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S8x2048x256.size a
  hwx0_7 : ∀ i : grid0.Coords, EltTy.bits .bf16 = 32 ∨ (Rect.block (s := S8x2048x256) S1x512x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x256.size a ≤ S8x2048x256.size a
  hwx0_8 : ∀ i : grid0.Coords, EltTy.bits .bf16 = 32 ∨ (Rect.block (s := S8x2048x256) S1x512x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1.size a ≤ S8x2048x1.size a
  hwx0_9 : ∀ i : grid0.Coords, EltTy.bits .f32 = 32 ∨ (Rect.block (s := S8x2048x1) S1x512x1.size (cc0_transform_9 i) (hinb0_9 i)).WholeWords (EltTy.packing .f32)
  hrank1 : 0 < grid1.rank
  k1_off1_inb : ∀ i : grid1.Coords, ∀ a, (k1_off1 i) a + S1x2048x256.size a ≤ S8x2048x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S8x2048x256.size a
  hwx1_0 : ∀ i : grid1.Coords, EltTy.bits .bf16 = 32 ∨ (Rect.block (s := S8x2048x256) S1x256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048x256.size a ≤ S8x2048x256.size a
  hwx1_1 : ∀ i : grid1.Coords, EltTy.bits .bf16 = 32 ∨ (Rect.block (s := S8x2048x256) S8x2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .i32 = 32 ∨ (Rect.block (s := S2048x2048) S256x2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S8x2048x2048.size a
  hwx1_3 : ∀ i : grid1.Coords, EltTy.bits .f32 = 32 ∨ (Rect.block (s := S8x2048x2048) S1x256x2048.size (cc1_transform_3 i) (hinb1_3 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1x512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S8x2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S2048x2048 : Shape := ⟨2, ![2048, 2048]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1x256 : Shape := ⟨3, ![1, 1, 256]⟩
abbrev S8x2048x2048 : Shape := ⟨3, ![8, 2048, 2048]⟩
abbrev S_ : Shape := ⟨0, ![]⟩
abbrev S1x2048x2048 : Shape := ⟨3, ![1, 2048, 2048]⟩
abbrev S8x2048x1 : Shape := ⟨3, ![8, 2048, 1]⟩
abbrev S1x1x1 : Shape := ⟨3, ![1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S2048x2048, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S8x2048x256, .f32⟩
  | .hbm, ⟨9, _⟩ => ⟨S1x1x256, .f32⟩
  | .hbm, ⟨10, _⟩ => ⟨S8x2048x256, .f32⟩
  | .hbm, ⟨11, _⟩ => ⟨S8x2048x256, .f32⟩
  | .hbm, ⟨12, _⟩ => ⟨S8x2048x256, .f32⟩
  | .hbm, ⟨13, _⟩ => ⟨S1x1x256, .f32⟩
  | .hbm, ⟨14, _⟩ => ⟨S8x2048x256, .f32⟩
  | .hbm, ⟨15, _⟩ => ⟨S8x2048x256, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S1x2048x2048, .i32⟩
  | .hbm, ⟨22, _⟩ => ⟨S_, .i32⟩
  | .hbm, ⟨23, _⟩ => ⟨S1x2048x2048, .i32⟩
  | .hbm, ⟨24, _⟩ => ⟨S1x2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x1, .f32⟩
  | .hbm, ⟨31, _⟩ => ⟨S1x1x1, .f32⟩
  | .hbm, ⟨32, _⟩ => ⟨S8x2048x1, .f32⟩
  | .hbm, ⟨33, _⟩ => ⟨S8x2048x1, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  bcast_S2048x2048_S1x2048x2048_1_2 : S2048x2048.BroadcastsInDim S1x2048x2048 (![1, 2] : Fin 2 → Fin S1x2048x2048.rank)
  bcast_S_S1x2048x2048 : S_.BroadcastsInDim S1x2048x2048 (![] : Fin 0 → Fin S1x2048x2048.rank)
  bcast_S1x2048x2048_S8x2048x2048_0_1_2 : S1x2048x2048.BroadcastsInDim S8x2048x2048 (![0, 1, 2] : Fin 3 → Fin S8x2048x2048.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x256_S1x256_S8x2048x1_2_1_01_0_n_n_wf : DotDims.WF S8x2048x256 S1x256 S8x2048x1 [2] [1] [0, 1] [0] [] []

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x256_S1x256_S8x2048x1_2_1_01_0_n_n : DotDims S8x2048x256 S1x256 S8x2048x1 where
  lhsContracting := [2]
  rhsContracting := [1]
  lhsNonContracting := [0, 1]
  rhsNonContracting := [0]
  lhsBatch := []
  rhsBatch := []
  wf := dot_S8x2048x256_S1x256_S8x2048x1_2_1_01_0_n_n_wf

class Facts : Prop extends Facts₀ where

variable [Facts]
-- ==== Proof.Spec.lean ====
/-
  The specification both programs meet at the ideal values: a scoring head over a batch of 8 sequences of
  2048 rows of 256 features.
    * two linear projections of every row,  proj x W b [s,n,e] = Σ_d x[s,n,d]·W[e,d] + b[e]  (queries with Wq, bq; keys
      with Wk, bk);
    * the scores  scores Q K mask [s,n,j] = 10·tanh(Σ_e Q[s,n,e]·K[s,j,e]), and -∞ wherever mask[n,j] = 0;
    * the one-column logit  logit x Wl bl [s,n,0] = Σ_d x[s,n,d]·Wl[0,d] + bl[0].
  Every sum runs over the 256 features in their order; the two float constants are kept as their binary words,
  the same words in both programs, and never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A linear projection of every row: entry `[s,n,e]` is `Σ_d x[s,n,d]·W[e,d] + b[e]`. -/
def proj (x : (⟨3, ![8, 2048, 256]⟩ : Shape).Idx → EReal) (W : (⟨2, ![256, 256]⟩ : Shape).Idx → EReal)
    (b : (⟨1, ![256]⟩ : Shape).Idx → EReal) : (⟨3, ![8, 2048, 256]⟩ : Shape).Idx → EReal :=
  fun j => (∑ k : Fin 256, x (ix3 (j 0) (j 1) k) * W (ix2 (j 2) k)) + b (ix1 (j 2))

/-- The masked, squashed scores: entry `[s,n,j]` is `10·tanh(Σ_e Q[s,n,e]·K[s,j,e])`, or `-∞` where `mask[n,j] = 0`. -/
def scores (Q K : (⟨3, ![8, 2048, 256]⟩ : Shape).Idx → EReal) (mask : (⟨2, ![2048, 2048]⟩ : Shape).Idx → BitVec 32) :
    (⟨3, ![8, 2048, 2048]⟩ : Shape).Idx → EReal :=
  fun i => Scalar.select (IntOp.cmpi .eq (mask (ix2 (i 1) (i 2))) 0#32) (Ideal.ofBits .f32 0xFF800000#32)
    (Ideal.ofBits .f32 0x41200000#32 * Ideal.tanh (∑ k : Fin 256, Q (ix3 (i 0) (i 1) k) * K (ix3 (i 0) (i 2) k)))

/-- The one-column logit: entry `[s,n,0]` is `Σ_d x[s,n,d]·Wl[0,d] + bl[0]`. -/
def logit (x : (⟨3, ![8, 2048, 256]⟩ : Shape).Idx → EReal) (Wl : (⟨2, ![1, 256]⟩ : Shape).Idx → EReal)
    (bl : (⟨1, ![1]⟩ : Shape).Idx → EReal) : (⟨3, ![8, 2048, 1]⟩ : Shape).Idx → EReal :=
  fun i => (∑ k : Fin 256, x (ix3 (i 0) (i 1) k) * Wl (ix2 (0 : Fin 1) k)) + bl (ix1 (0 : Fin 1))

end Cert.Spec

end
-- ==== Proof.RefIsSpec.lean ====
/-
  The reference computes, in this order: the two linear projections of every row (a contraction over the 256
  features plus a bias broadcast along the rows), their batched product over the features, the hyperbolic tangent
  of that product, the scale by a constant, and the mask (negative infinity wherever the integer mask is zero);
  and, separately, the one-column logit (a contraction plus a broadcast bias). Each stage, read at an index, gives
  the corresponding formula of the specification: the index maps of the contractions and of the broadcasts are the
  coordinate constructors, the elementwise operations are the extended reals' own, and the two float constants stay
  as their binary words.
-/
import proofs.«135975_j29901562314767_2_alg».proof.Proof.Gen.ReferenceIdeal.Read
import proofs.«135975_j29901562314767_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The one-column logit of the reference is the specification's: the contraction reads `x[s,n,k]·Wl[0,k]`, and the
    bias, broadcast from its single entry, is `bl[0]`. -/
theorem logit_eq (x0 : (⟨S8x2048x256, .f32⟩ : BufTy).Contents (Elt Ideal)) (x6 : (⟨S1x256, .f32⟩ : BufTy).Contents (Elt Ideal))
    (x7 : (⟨S1, .f32⟩ : BufTy).Contents (Elt Ideal)) :
    Read.val_main_v19 (F := Ideal) x0 x6 x7 = Cert.Spec.logit x0 x6 x7 := by
  funext i
  -- the contraction's left index is (s, n, k); its right index is (0, k), the output's last axis having one entry
  have el : ∀ k : Fin 256, lidx_main_v16 i k = ix3 (i 0) (i 1) k := fun k => funext fun a => by
    match a with | ⟨0, _⟩ => rfl | ⟨1, _⟩ => rfl | ⟨2, _⟩ => rfl
  have er : ∀ k : Fin 256, ridx_main_v16 i k = ix2 (0 : Fin 1) k := fun k => funext fun a => by
    match a with
    | ⟨0, _⟩ => exact Fin.ext (Nat.lt_one_iff.mp (show (i 2).val < 1 from (i 2).isLt))
    | ⟨1, _⟩ => rfl
  -- the two broadcasts of the bias read its single entry
  have eb : idx_main_v17 (idx_main_v18 i) = ix1 (0 : Fin 1) := funext fun a => by
    match a with | ⟨0, _⟩ => rfl
  rw [val_main_v19_apply, val_main_v16_apply, val_main_v18_apply, val_main_v17_apply]
  simp only [el, er, eb, Ideal.addf_def]
  rfl

/-- The query projection of the reference is the specification's: entry `[s,n,e]` is `Σ_k x[s,n,k]·Wq[e,k] + bq[e]`. -/
theorem projQ_eq (x0 : (⟨S8x2048x256, .f32⟩ : BufTy).Contents (Elt Ideal)) (x2 : (⟨S256x256, .f32⟩ : BufTy).Contents (Elt Ideal))
    (x3 : (⟨S256, .f32⟩ : BufTy).Contents (Elt Ideal)) :
    Read.val_main_v3 (F := Ideal) x0 x2 x3 = Cert.Spec.proj x0 x2 x3 := by
  funext j
  have el : ∀ k : Fin 256, lidx_main_v0 j k = ix3 (j 0) (j 1) k := fun k => funext fun a => by
    match a with | ⟨0, _⟩ => rfl | ⟨1, _⟩ => rfl | ⟨2, _⟩ => rfl
  have er : ∀ k : Fin 256, ridx_main_v0 j k = ix2 (j 2) k := fun k => funext fun a => by
    match a with | ⟨0, _⟩ => rfl | ⟨1, _⟩ => rfl
  have eb : idx_main_v1 (idx_main_v2 j) = ix1 (j 2) := funext fun a => by
    match a with | ⟨0, _⟩ => rfl
  rw [val_main_v3_apply, val_main_v0_apply, val_main_v2_apply, val_main_v1_apply]
  simp only [el, er, eb, Ideal.addf_def]
  rfl

/-- The key projection of the reference is the specification's: entry `[s,n,e]` is `Σ_k x[s,n,k]·Wk[e,k] + bk[e]`. -/
theorem projK_eq (x0 : (⟨S8x2048x256, .f32⟩ : BufTy).Contents (Elt Ideal)) (x4 : (⟨S256x256, .f32⟩ : BufTy).Contents (Elt Ideal))
    (x5 : (⟨S256, .f32⟩ : BufTy).Contents (Elt Ideal)) :
    Read.val_main_v7 (F := Ideal) x0 x4 x5 = Cert.Spec.proj x0 x4 x5 := by
  funext j
  have el : ∀ k : Fin 256, lidx_main_v4 j k = ix3 (j 0) (j 1) k := fun k => funext fun a => by
    match a with | ⟨0, _⟩ => rfl | ⟨1, _⟩ => rfl | ⟨2, _⟩ => rfl
  have er : ∀ k : Fin 256, ridx_main_v4 j k = ix2 (j 2) k := fun k => funext fun a => by
    match a with | ⟨0, _⟩ => rfl | ⟨1, _⟩ => rfl
  have eb : idx_main_v5 (idx_main_v6 j) = ix1 (j 2) := funext fun a => by
    match a with | ⟨0, _⟩ => rfl
  rw [val_main_v7_apply, val_main_v4_apply, val_main_v6_apply, val_main_v5_apply]
  simp only [el, er, eb, Ideal.addf_def]
  rfl

/-- The masked, squashed scores of the reference are the specification's, over the two projections: the batched
    contraction reads `Q[s,n,k]·K[s,j,k]`; the scale and the fill are the two constants' words; the mask, broadcast
    along the batch, is read at `[n,j]` and compared with the integer zero. -/
theorem scores_eq (x0 : (⟨S8x2048x256, .f32⟩ : BufTy).Contents (Elt Ideal)) (x1 : (⟨S2048x2048, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    Read.val_main_v15 (F := Ideal) x0 x1 x2 x3 x4 x5
      = Cert.Spec.scores (Cert.Spec.proj x0 x2 x3) (Cert.Spec.proj x0 x4 x5) x1 := by
  funext i
  -- the batched contraction's left index is (s, n, k) and its right index is (s, j, k)
  have el : ∀ k : Fin 256, lidx_main_v8 i k = ix3 (i 0) (i 1) k := fun k => funext fun a => by
    match a with | ⟨0, _⟩ => rfl | ⟨1, _⟩ => rfl | ⟨2, _⟩ => rfl
  have er : ∀ k : Fin 256, ridx_main_v8 i k = ix3 (i 0) (i 2) k := fun k => funext fun a => by
    match a with | ⟨0, _⟩ => rfl | ⟨1, _⟩ => rfl | ⟨2, _⟩ => rfl
  -- the mask, broadcast along the batch axis, is read at (n, j)
  have em : idx_main_v12 (idx_main_call0_v1 i) = ix2 (i 1) (i 2) := funext fun a => by
    match a with | ⟨0, _⟩ => rfl | ⟨1, _⟩ => rfl
  rw [val_main_v15_apply, val_main_call0_v1_apply, val_main_v14_apply, val_main_v12_apply, val_main_v13_apply,
    val_main_c_apply, val_main_call0_v2_apply, val_main_call0_v0_apply, val_main_cst_0_apply, val_main_v11_apply,
    val_main_v10_apply, val_main_cst_apply, val_main_v9_apply, val_main_v8_apply, projQ_eq, projK_eq]
  simp only [el, er, em, Ideal.mulf_def, Ideal.hostUnary_tanh_def, Ideal.ofBits_def]
  rfl

end Cert.ReferenceIdeal.RefValue

end
-- ==== Proof.KernelRun.lean ====
/-
  The two-kernel program's run with its RESULT arrays named. The program is a short stretch of host casts, the
  projection kernel over a grid of 8 × 4 row blocks, then the scores kernel over a grid of 8 × 8 blocks. Every weakly
  fair execution ends; the final memory holds, at every buffer the kernels do not scope, the last boundary's contents:
  the projection kernel's arrays as its write-backs left them, then the scores kernel's. Read at the two results: the
  logit column is what the FIRST kernel's third output window ends holding (the second kernel never touches it), the
  scores array what the SECOND kernel's output window ends holding; the eight arguments end as launched.
-/
import proofs.«135975_j29901562314767_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents at the logit column: the second kernel has no window on it, so it is what the first
    kernel's write-backs of its third output window left. -/
theorem last_logit (c : Dev nD) :
    W3 m ρ c (Proc.devRef .tc main_v3_2) = (dat0 (V1 m ρ) c).arrAt 9 cfg0.N :=
  (W3_of_ne m ρ c main_v3_2 (by decide)).trans (W2_arr m ρ c 9)

/-- The last boundary's contents at the scores array: what the second kernel's write-backs left. -/
theorem last_scores (c : Dev nD) :
    W3 m ρ c (Proc.devRef .tc main_v4) = (dat1 (V2 m ρ) c).arrAt 3 cfg1.N :=
  W3_arr m ρ c 3

set_option backward.isDefEq.respectTransparency.types false in
/-- The run: it terminates without a fault, the two results end at the last boundary's contents, the arguments as
    launched. -/
theorem run_results : θ_run defs (onTc (τ := τ) (main (F := F))) ⟨m, fun _ => 0, ρ⟩ (fun r => ∀ c : Dev nD,
      r.2.mem ((c.tc : Thread nD τ).loc main_v3_2) = W3 m ρ c (Proc.devRef .tc main_v3_2)
      ∧ r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3_2 (by decide)),
       h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.RunValue

end
-- ==== Proof.HostSide.lean ====
/-
  What the first kernel finds when it is entered. Before it, the program only casts three weight arrays (the two
  projection matrices and the logit row) from f32 to bf16, each cast written to a buffer of its own; no operation
  writes an argument. So at the first kernel's entry every argument array holds what it held at launch, and each of
  the three cast buffers holds the cast of its argument's launch contents. On the extended reals a change of float
  format is the identity, so there the three cast buffers hold the weights themselves. At the first kernel's exit the
  mask argument, on which that kernel has no window, is still as launched, and the two projection outputs hold what
  the kernel's write-backs leave.
-/
import proofs.«135975_j29901562314767_2_alg».proof.Proof.Gen.KernelIdeal.Frame
import Idealize.ShloMosaic.Lib.StableHlo.Run
import Idealize.ShloMosaic.Lib.ValueIdx

set_option maxRecDepth 16384

noncomputable section

namespace Cert.KernelIdeal.HostSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## At the first kernel's entry: the three cast buffers -/

/-- The first cast buffer holds the query weights cast to bf16. -/
theorem V1_v0 (c : Dev nD) :
    (V1 m ρ c main_v0 : (⟨S256x256, .bf16⟩ : BufTy).Contents (Elt F))
      = truncf .bf16 (m ((c : Thread nD τ).loc main_arg2) : (⟨S256x256, .f32⟩ : BufTy).Contents (Elt F)) bitsLt_bf16_f32 := by
  show StableHlo.after hostOps0 (W0 m ρ c) (Proc.devRef .tc main_v0) = _
  after_results

/-- The second cast buffer holds the key weights cast to bf16. -/
theorem V1_v1 (c : Dev nD) :
    (V1 m ρ c main_v1 : (⟨S256x256, .bf16⟩ : BufTy).Contents (Elt F))
      = truncf .bf16 (m ((c : Thread nD τ).loc main_arg4) : (⟨S256x256, .f32⟩ : BufTy).Contents (Elt F)) bitsLt_bf16_f32 := by
  show StableHlo.after hostOps0 (W0 m ρ c) (Proc.devRef .tc main_v1) = _
  after_results

/-- The third cast buffer holds the logit row cast to bf16. -/
theorem V1_v2 (c : Dev nD) :
    (V1 m ρ c main_v2 : (⟨S1x256, .bf16⟩ : BufTy).Contents (Elt F))
      = truncf .bf16 (m ((c : Thread nD τ).loc main_arg6) : (⟨S1x256, .f32⟩ : BufTy).Contents (Elt F)) bitsLt_bf16_f32 := by
  show StableHlo.after hostOps0 (W0 m ρ c) (Proc.devRef .tc main_v2) = _
  after_results

/-! ## At the first kernel's entry: every argument as launched (no cast writes an argument) -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg4 (c : Dev nD) : V1 m ρ c main_arg4 = m ((c : Thread nD τ).loc main_arg4) := by
  show StableHlo.after hostOps0 (W0 m ρ c) (Proc.devRef .tc main_arg4) = _
  after_results

theorem V1_arg5 (c : Dev nD) : V1 m ρ c main_arg5 = m ((c : Thread nD τ).loc main_arg5) := by
  show StableHlo.after hostOps0 (W0 m ρ c) (Proc.devRef .tc main_arg5) = _
  after_results

theorem V1_arg6 (c : Dev nD) : V1 m ρ c main_arg6 = m ((c : Thread nD τ).loc main_arg6) := by
  show StableHlo.after hostOps0 (W0 m ρ c) (Proc.devRef .tc main_arg6) = _
  after_results

theorem V1_arg7 (c : Dev nD) : V1 m ρ c main_arg7 = m ((c : Thread nD τ).loc main_arg7) := by
  show StableHlo.after hostOps0 (W0 m ρ c) (Proc.devRef .tc main_arg7) = _
  after_results

/-! ## At the first kernel's exit -/

/-- The first kernel has no window on the mask: it is still as launched. -/
theorem V2_arg1 (c : Dev nD) : V2 m ρ c main_arg1 = m ((c : Thread nD τ).loc main_arg1) :=
  (W2_of_ne m ρ c main_arg1 (by decide)).trans (V1_arg1 m ρ c)

/-- The query projection's buffer holds what the first kernel's write-backs leave in its window. -/
theorem V2_v3_0 (c : Dev nD) : V2 m ρ c main_v3_0 = (dat0 (V1 m ρ) c).arrAt 7 cfg0.N := W2_arr m ρ c 7

/-- The key projection's buffer holds what the first kernel's write-backs leave in its window. -/
theorem V2_v3_1 (c : Dev nD) : V2 m ρ c main_v3_1 = (dat0 (V1 m ρ) c).arrAt 8 cfg0.N := W2_arr m ρ c 8

/-! ## On the extended reals the cast is the identity -/

/-- On the extended reals the first cast buffer holds the query weights themselves. -/
theorem V1_v0_ideal (m : (ℓ : Loc nD τ sig) → Buf (Elt Ideal) ℓ) (ρ : Dev nD → PrngReg) (c : Dev nD) :
    (V1 m ρ c main_v0 : (⟨S256x256, .bf16⟩ : BufTy).Contents (Elt Ideal))
      = (m ((c : Thread nD τ).loc main_arg2) : (⟨S256x256, .f32⟩ : BufTy).Contents (Elt Ideal)) :=
  V1_v0 m ρ c

/-- On the extended reals the second cast buffer holds the key weights themselves. -/
theorem V1_v1_ideal (m : (ℓ : Loc nD τ sig) → Buf (Elt Ideal) ℓ) (ρ : Dev nD → PrngReg) (c : Dev nD) :
    (V1 m ρ c main_v1 : (⟨S256x256, .bf16⟩ : BufTy).Contents (Elt Ideal))
      = (m ((c : Thread nD τ).loc main_arg4) : (⟨S256x256, .f32⟩ : BufTy).Contents (Elt Ideal)) :=
  V1_v1 m ρ c

/-- On the extended reals the third cast buffer holds the logit row itself. -/
theorem V1_v2_ideal (m : (ℓ : Loc nD τ sig) → Buf (Elt Ideal) ℓ) (ρ : Dev nD → PrngReg) (c : Dev nD) :
    (V1 m ρ c main_v2 : (⟨S1x256, .bf16⟩ : BufTy).Contents (Elt Ideal))
      = (m ((c : Thread nD τ).loc main_arg6) : (⟨S1x256, .f32⟩ : BufTy).Contents (Elt Ideal)) :=
  V1_v2 m ρ c

end Cert.KernelIdeal.HostSide

end
-- ==== Proof.Payloads.lean ====
/-
  The arithmetic of the two kernel bodies, read one element at a time at the ideal (extended-real) values.

  First kernel, on a block of 512 rows of 256 features: each of the two projections at `(0, r, e)` is
  `Σ_k x[0,r,k]·W[e,k] + b[e]` (the block times the transpose of the weight matrix, accumulated into zero, plus the
  bias row broadcast over the rows; the format changes are the identity on extended reals), and the one-column logit
  at `(0, r, 0)` is `Σ_k x[0,r,k]·w[0,k] + c[0]` (the block times the weight row broadcast over the rows, summed
  along the features, plus the one bias broadcast).
  Second kernel, on a block of 256 query rows against all 2048 key rows: the score at `(0, r, j)` is `-∞` where the
  mask word at `(r, j)` is zero, and otherwise the constant word for ten times `tanh (Σ_k q[0,r,k]·k[0,j,k])`.

  Each statement is pure vector algebra: a product into zero is the sum over the one contracted axis, re-indexed by
  its coordinate; a shape cast that adds or drops a unit axis, and a broadcast along a unit axis, read the operand
  at the matching coordinates.
-/
import proofs.«135975_j29901562314767_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen

/-- The left operand's row coordinate at output index `(r, j)` is `r`. -/
theorem matmul_scores_lhs0 (i : S256x2048.Idx) (q : dot_S256x256_S2048x256_S256x2048_1_1_0_0_n_n.contr.Idx) : (dot_S256x256_S2048x256_S256x2048_1_1_0_0_n_n.lhsIdx i q 0).val = (i 0).val := by
  unfold DotDims.lhsIdx
  rw [dif_neg (show ¬(0 : Fin S256x256.rank) ∈ dot_S256x256_S2048x256_S256x2048_1_1_0_0_n_n.lhsBatch by decide),
    dif_pos (show (0 : Fin S256x256.rank) ∈ dot_S256x256_S2048x256_S256x2048_1_1_0_0_n_n.lhsNonContracting by decide)]
  rfl
/-- The right operand's row coordinate at output index `(r, j)` is `j`. -/
theorem matmul_scores_rhs0 (i : S256x2048.Idx) (q : dot_S256x256_S2048x256_S256x2048_1_1_0_0_n_n.contr.Idx) : (dot_S256x256_S2048x256_S256x2048_1_1_0_0_n_n.rhsIdx i q 0).val = (i 1).val := by
  unfold DotDims.rhsIdx
  rw [dif_neg (show ¬(0 : Fin S2048x256.rank) ∈ dot_S256x256_S2048x256_S256x2048_1_1_0_0_n_n.rhsBatch by decide),
    dif_pos (show (0 : Fin S2048x256.rank) ∈ dot_S256x256_S2048x256_S256x2048_1_1_0_0_n_n.rhsNonContracting by decide)]
  rfl

/-- The scores product read at `(r, j)`: a `[256,256]` block times the transpose of a `[2048,256]` block, accumulated
    into zero, is the sum over the 256 features of row `r` of the first times row `j` of the second. -/
theorem matmul_scores_apply (A : FVec Ideal S256x256 .bf16) (B : FVec Ideal S2048x256 .bf16) (r : Fin 256) (j : Fin 2048) :
    matmul (F := Ideal) dot_S256x256_S2048x256_S256x2048_1_1_0_0_n_n none A B (constant S256x2048 .f32 0x00000000#32) (ix2 r j)
      = ∑ k : Fin 256, A (ix2 r k) * B (ix2 j k) := by
  simp only [matmul]
  rw [Ideal.matmul_constant_zero_apply,
    ← Equiv.sum_comp (contrEquiv1 dot_S256x256_S2048x256_S256x2048_1_1_0_0_n_n 256 rfl rfl).symm]
  refine Finset.sum_congr rfl fun k _ => ?_
  have hk := contrEquiv1_symm_val dot_S256x256_S2048x256_S256x2048_1_1_0_0_n_n 256 rfl rfl k
  have el : dot_S256x256_S2048x256_S256x2048_1_1_0_0_n_n.lhsIdx (ix2 r j) ((contrEquiv1 dot_S256x256_S2048x256_S256x2048_1_1_0_0_n_n 256 rfl rfl).symm k) = ix2 r k :=
    funext fun a => Fin.ext (by
      match a with
      | ⟨0, _⟩ => exact matmul_scores_lhs0 _ _
      | ⟨1, _⟩ => exact (dot_S256x256_S2048x256_S256x2048_1_1_0_0_n_n.lhsIdx_val_of_single rfl (ix2 r j) _).trans hk)
  have er : dot_S256x256_S2048x256_S256x2048_1_1_0_0_n_n.rhsIdx (ix2 r j) ((contrEquiv1 dot_S256x256_S2048x256_S256x2048_1_1_0_0_n_n 256 rfl rfl).symm k) = ix2 j k :=
    funext fun a => Fin.ext (by
      match a with
      | ⟨0, _⟩ => exact matmul_scores_rhs0 _ _
      | ⟨1, _⟩ => exact (dot_S256x256_S2048x256_S256x2048_1_1_0_0_n_n.rhsIdx_val_of_single rfl (ix2 r j) _).trans hk)
  rw [el, er]

/-- The scores block at `(0, r, j)`: `-∞` where the mask word is zero, else ten times the hyperbolic tangent of the
    inner product of query row `r` and key row `j` over the 256 features. -/
theorem pay1_scores_apply (v0 : Vec Ideal S1x256x256 .bf16) (v3 : Vec Ideal S1x2048x256 .bf16) (v9 : Vec Ideal S256x2048 .i32) (r : Fin 256) (j : Fin 2048) :
    k1_pay1 (F := Ideal) v0 v3 v9 (ix3 (0 : Fin 1) r j) = Scalar.select (IntOp.cmpi .eq (v9 (ix2 r j)) 0#32) (Ideal.ofBits .f32 0xFF800000#32) (Ideal.ofBits .f32 0x41200000#32 * Ideal.tanh (∑ k : Fin 256, v0 (ix3 (0 : Fin 1) r k) * v3 (ix3 (0 : Fin 1) j k))) := by
  unfold k1_pay1
  refine (shapeCast_ab_1ab_apply _ _ (0 : Fin 1) r j).trans ?_
  show Scalar.select (IntOp.cmpi .eq (v9 (ix2 r j)) 0#32) (Ideal.ofBits .f32 0xFF800000#32)
      (Ideal.ofBits .f32 0x41200000#32 * Ideal.tanh
        (matmul (F := Ideal) dot_S256x256_S2048x256_S256x2048_1_1_0_0_n_n none
          (shapeCast S256x256 v0 shapeCasts_S1x256x256_S256x256)
          (shapeCast S2048x256 v3 shapeCasts_S1x2048x256_S2048x256) (constant S256x2048 .f32 0x00000000#32) (ix2 r j))) = _
  rw [matmul_scores_apply]
  refine congrArg (fun z => Scalar.select (IntOp.cmpi .eq (v9 (ix2 r j)) 0#32) (Ideal.ofBits .f32 0xFF800000#32)
      (Ideal.ofBits .f32 0x41200000#32 * Ideal.tanh z)) ?_
  refine Finset.sum_congr rfl fun k _ => ?_
  rw [shapeCast_1ab_ab_apply, shapeCast_1ab_ab_apply]

/-- The left operand's row coordinate at output index `(r, j)` is `r`. -/
theorem matmul_proj_lhs0 (i : S512x256.Idx) (q : dot_S512x256_S256x256_S512x256_1_1_0_0_n_n.contr.Idx) : (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide),
    dif_pos (show (0 : Fin S512x256.rank) ∈ dot_S512x256_S256x256_S512x256_1_1_0_0_n_n.lhsNonContracting by decide)]
  rfl
/-- The right operand's row coordinate at output index `(r, j)` is `j`. -/
theorem matmul_proj_rhs0 (i : S512x256.Idx) (q : dot_S512x256_S256x256_S512x256_1_1_0_0_n_n.contr.Idx) : (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide),
    dif_pos (show (0 : Fin S256x256.rank) ∈ dot_S512x256_S256x256_S512x256_1_1_0_0_n_n.rhsNonContracting by decide)]
  rfl

/-- A projection's product read at `(r, e)`: the `[512,256]` block times the transpose of the `[256,256]` weight matrix,
    accumulated into zero, is the sum over the 256 features of row `r` of the block times row `e` of the weights. -/
theorem matmul_proj_apply (A : FVec Ideal S512x256 .bf16) (B : FVec Ideal S256x256 .bf16) (r : Fin 512) (j : Fin 256) :
    matmul (F := Ideal) dot_S512x256_S256x256_S512x256_1_1_0_0_n_n none A B (constant S512x256 .f32 0x00000000#32) (ix2 r j)
      = ∑ k : Fin 256, A (ix2 r k) * B (ix2 j k) := by
  simp only [matmul]
  rw [Ideal.matmul_constant_zero_apply,
    ← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 r j) ((contrEquiv1 dot_S512x256_S256x256_S512x256_1_1_0_0_n_n 256 rfl rfl).symm k) = ix2 r k :=
    funext fun a => Fin.ext (by
      match a with
      | ⟨0, _⟩ => exact matmul_proj_lhs0 _ _
      | ⟨1, _⟩ => exact (dot_S512x256_S256x256_S512x256_1_1_0_0_n_n.lhsIdx_val_of_single rfl (ix2 r j) _).trans hk)
  have er : dot_S512x256_S256x256_S512x256_1_1_0_0_n_n.rhsIdx (ix2 r j) ((contrEquiv1 dot_S512x256_S256x256_S512x256_1_1_0_0_n_n 256 rfl rfl).symm k) = ix2 j k :=
    funext fun a => Fin.ext (by
      match a with
      | ⟨0, _⟩ => exact matmul_proj_rhs0 _ _
      | ⟨1, _⟩ => exact (dot_S512x256_S256x256_S512x256_1_1_0_0_n_n.rhsIdx_val_of_single rfl (ix2 r j) _).trans hk)
  rw [el, er]

/-- The first projection's block at `(0, r, e)`: row `r` of the input block against row `e` of the weight matrix over the
    256 features, plus the bias at `e`. -/
theorem pay5_apply (x0 : Vec Ideal S1x512x256 .f32) (x1 : Vec Ideal S256x256 .bf16) (x2 : Vec Ideal S256 .f32) (r : Fin 512) (e : Fin 256) :
    k0_pay5 (F := Ideal) x0 x1 x2 (ix3 (0 : Fin 1) r e) = (∑ k : Fin 256, x0 (ix3 (0 : Fin 1) r k) * x1 (ix2 e k)) + x2 (ix1 e) := by
  unfold k0_pay5 k0_pay3 k0_pay2
  refine (shapeCast_ab_1ab_apply _ _ (0 : Fin 1) r e).trans ?_
  show matmul (F := Ideal) dot_S512x256_S256x256_S512x256_1_1_0_0_n_n none
        (truncf .bf16 (shapeCast S512x256 x0 shapeCasts_S1x512x256_S512x256) bitsLt_bf16_f32)
        (shapeCast S256x256 x1 shapeCasts_S256x256_S256x256) (constant S512x256 .f32 0x00000000#32) (ix2 r e)
      + broadcastTo S512x256 (shapeCast S1x256 x2 shapeCasts_S256_S1x256) broadcasts_S1x256_S512x256 (ix2 r e) = _
  rw [matmul_proj_apply, broadcastTo_1b_ab_apply, shapeCast_a_1a_apply, shapeCast_self]
  refine congrArg (· + x2 (ix1 e)) ?_
  refine Finset.sum_congr rfl fun k _ => ?_
  rw [truncf_apply, shapeCast_1ab_ab_apply]

/-- The second projection's block at `(0, r, e)`: the same body on the other weight matrix and bias. -/
theorem pay6_apply (x0 : Vec Ideal S1x512x256 .f32) (x1 : Vec Ideal S256x256 .bf16) (x2 : Vec Ideal S256 .f32) (r : Fin 512) (e : Fin 256) :
    k0_pay6 (F := Ideal) x0 x1 x2 (ix3 (0 : Fin 1) r e) = (∑ k : Fin 256, x0 (ix3 (0 : Fin 1) r k) * x1 (ix2 e k)) + x2 (ix1 e) := by
  unfold k0_pay6 k0_pay3 k0_pay2
  refine (shapeCast_ab_1ab_apply _ _ (0 : Fin 1) r e).trans ?_
  show matmul (F := Ideal) dot_S512x256_S256x256_S512x256_1_1_0_0_n_n none
        (truncf .bf16 (shapeCast S512x256 x0 shapeCasts_S1x512x256_S512x256) bitsLt_bf16_f32)
        (shapeCast S256x256 x1 shapeCasts_S256x256_S256x256) (constant S512x256 .f32 0x00000000#32) (ix2 r e)
      + broadcastTo S512x256 (shapeCast S1x256 x2 shapeCasts_S256_S1x256) broadcasts_S1x256_S512x256 (ix2 r e) = _
  rw [matmul_proj_apply, broadcastTo_1b_ab_apply, shapeCast_a_1a_apply, shapeCast_self]
  refine congrArg (· + x2 (ix1 e)) ?_
  refine Finset.sum_congr rfl fun k _ => ?_
  rw [truncf_apply, shapeCast_1ab_ab_apply]

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Summing a `[512,256]` array along its second axis: the index of row `r` with the coordinate `k` put back on that
    axis is `(r, k)`. -/
theorem lift_rows (r : Fin 512) (k : Fin 256) : reduces_S512x256_S512.lift (ix1 r) k = ix2 r k := by
  funext a
  refine Fin.ext ?_
  match a with
  | ⟨0, _⟩ => rfl
  | ⟨1, _⟩ => rfl

/-- The sum of a `[512,256]` array along its second axis, from the zero word, read at row `r`: the sum over the 256
    coordinates `k` of the array at `(r, k)`. -/
theorem rowSum_apply (src : FVec Ideal S512x256 .f32) (hacc : (0x00000000#32 : BitVec 32) = 0x00000000#32) (r : Fin 512) :
    multiReduction (F := Ideal) .add [1] S512 src 0x00000000#32 reduces_S512x256_S512 (.inl rfl) hacc (ix1 r)
      = ∑ k : Fin 256, src (ix2 r k) :=
  (Ideal.multiReduction_add_single src 0x00000000#32 reduces_S512x256_S512 (.inl rfl) hacc (ix1 r)).trans
    (Finset.sum_congr rfl fun k _ => congrArg src (lift_rows r k))

/-- The logit column at `(0, r, 0)`: row `r` of the input block against the one weight row over the 256 features, plus
    the one bias. -/
theorem pay14_apply (x0 : Vec Ideal S1x512x256 .f32) (x5 : Vec Ideal S1x256 .bf16) (x6 : Vec Ideal S1 .f32) (r : Fin 512) :
    k0_pay1 (F := Ideal) (k0_pay4 x0 x5 x6) (ix3 (0 : Fin 1) r (0 : Fin 1)) = (∑ k : Fin 256, x0 (ix3 (0 : Fin 1) r k) * x5 (ix2 (0 : Fin 1) k)) + x6 (ix1 (0 : Fin 1)) := by
  unfold k0_pay1 k0_pay4 k0_pay2
  refine (shapeCast_ab_1ab_apply _ _ (0 : Fin 1) r (0 : Fin 1)).trans ?_
  show shapeCast S512x1
        (multiReduction (F := Ideal) .add [1] S512
          (mulf (shapeCast S512x256 x0 shapeCasts_S1x512x256_S512x256)
            (broadcastTo S512x256 (extf .f32 (shapeCast S1x256 x5 shapeCasts_S1x256_S1x256) bitsLt_bf16_f32) broadcasts_S1x256_S512x256))
          0x00000000#32 reduces_S512x256_S512 (.inl rfl) rfl)
        shapeCasts_S512_S512x1 (ix2 r (0 : Fin 1))
      + broadcastTo S512x1 (shapeCast S1x1 x6 shapeCasts_S1_S1x1) broadcasts_S1x1_S512x1 (ix2 r (0 : Fin 1)) = _
  rw [shapeCast_a_a1_apply, broadcastTo_1b_ab_apply, shapeCast_a_1a_apply]
  refine (congrArg (· + x6 (ix1 (0 : Fin 1))) (rowSum_apply _ rfl r)).trans ?_
  refine congrArg (· + x6 (ix1 (0 : Fin 1))) ?_
  refine Finset.sum_congr rfl fun k _ => ?_
  rw [mulf_apply, shapeCast_1ab_ab_apply, broadcastTo_1b_ab_apply, extf_apply, shapeCast_self]

end Cert.KernelIdeal.PayValue

end
-- ==== Proof.Blocks0.lean ====
/-
  The projection kernel's three result arrays, whole. The kernel runs over a grid of 8 × 4 points; at point (s, q) it
  loads rows 512q … 512q+511 of batch entry s of `x`, both 256 × 256 weight matrices, both bias rows, the logit's
  weight row and its bias, and stores three blocks: the query rows, the key rows, and the logit column of those 512
  rows. Read at an index, each stored block is the specification's formula at the block's place in the array — the
  block's entry (0, r, e) is the array's entry (s, 512q + r, e) —, and the 32 blocks tile each array, so each array
  ends holding the specification's function of the arrays the kernel finds when it is entered.
-/
import proofs.«135975_j29901562314767_2_alg».proof.Proof.Gen.KernelIdeal.Frame
import proofs.«135975_j29901562314767_2_alg».proof.Proof.Spec
import proofs.«135975_j29901562314767_2_alg».proof.Proof.Payloads
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps of the first kernel, decided over its 32 grid points: the row block of `x` moves with the three output
    blocks (batch entry, row block, column block 0), the six small operands are whole and never move. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0 ∧ win0_7.index t (2 : Fin 3) = 0
    ∧ win0_8.index t (0 : Fin 3) = win0_7.index t (0 : Fin 3) ∧ win0_8.index t (1 : Fin 3) = win0_7.index t (1 : Fin 3) ∧ win0_8.index t (2 : Fin 3) = 0
    ∧ win0_9.index t (0 : Fin 3) = win0_7.index t (0 : Fin 3) ∧ win0_9.index t (1 : Fin 3) = win0_7.index t (1 : Fin 3) ∧ win0_9.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) ≤ 7 ∧ win0_7.index t (1 : Fin 3) ≤ 3 :=
  (by decide +kernel : ∀ t : Fin grid0.N, _)

/-- Every (batch entry, row block) pair is some grid point's. -/
theorem idx_onto : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

/-- If a block of rows, a weight matrix and a bias row are read off the arrays `A`, `W`, `B` at row (a, b), the body's
    arithmetic at (r, e) is the projection of `A`, `W`, `B` at (a, b, e). -/
theorem proj_of_reads (A : (⟨3, ![8, 2048, 256]⟩ : Shape).Idx → EReal) (W : (⟨2, ![256, 256]⟩ : Shape).Idx → EReal)
    (B : (⟨1, ![256]⟩ : Shape).Idx → EReal) (x0 : (⟨3, ![1, 512, 256]⟩ : Shape).Idx → EReal) (x1 : (⟨2, ![256, 256]⟩ : Shape).Idx → EReal)
    (x2 : (⟨1, ![256]⟩ : Shape).Idx → EReal) (r : Fin 512) (e : Fin 256) (a : Fin 8) (b : Fin 2048)
    (h0 : ∀ k : Fin 256, x0 (ix3 (0 : Fin 1) r k) = A (ix3 a b k)) (h1 : ∀ k : Fin 256, x1 (ix2 e k) = W (ix2 e k))
    (h2 : x2 (ix1 e) = B (ix1 e)) :
    (∑ k : Fin 256, x0 (ix3 (0 : Fin 1) r k) * x1 (ix2 e k)) + x2 (ix1 e) = Cert.Spec.proj A W B (ix3 a b e) := by
  unfold Cert.Spec.proj
  rw [h2]
  exact congrArg (· + B (ix1 e)) (Finset.sum_congr rfl fun k _ => by rw [h0 k, h1 k])

/-- The same for the logit column. -/
theorem logit_of_reads (A : (⟨3, ![8, 2048, 256]⟩ : Shape).Idx → EReal) (Wl : (⟨2, ![1, 256]⟩ : Shape).Idx → EReal)
    (Bl : (⟨1, ![1]⟩ : Shape).Idx → EReal) (x0 : (⟨3, ![1, 512, 256]⟩ : Shape).Idx → EReal) (x5 : (⟨2, ![1, 256]⟩ : Shape).Idx → EReal)
    (x6 : (⟨1, ![1]⟩ : Shape).Idx → EReal) (r : Fin 512) (a : Fin 8) (b : Fin 2048)
    (h0 : ∀ k : Fin 256, x0 (ix3 (0 : Fin 1) r k) = A (ix3 a b k)) (h1 : ∀ k : Fin 256, x5 (ix2 (0 : Fin 1) k) = Wl (ix2 (0 : Fin 1) k))
    (h2 : x6 (ix1 (0 : Fin 1)) = Bl (ix1 (0 : Fin 1))) :
    (∑ k : Fin 256, x0 (ix3 (0 : Fin 1) r k) * x5 (ix2 (0 : Fin 1) k)) + x6 (ix1 (0 : Fin 1)) = Cert.Spec.logit A Wl Bl (ix3 a b (0 : Fin 1)) := by
  unfold Cert.Spec.logit
  rw [h2]
  exact congrArg (· + Bl (ix1 (0 : Fin 1))) (Finset.sum_congr rfl fun k _ => by rw [h0 k, h1 k])

/-- Row `r`, feature `k` of the block of `x` at point `t` is `x` at (batch entry, 512·row block + r, k). -/
theorem read0_0 (A : (⟨S8x2048x256, .f32⟩ : BufTy).Contents (Elt Ideal)) (t : Fin cfg0.N) (r : Fin 512) (k : Fin 256)
    (a : Fin 8) (b : Fin 2048) (ha : a.val = win0_7.index t (0 : Fin 3)) (hb : b.val = win0_7.index t (1 : Fin 3) * 512 + r.val) :
    ((cfg0.win 0).blk t).view.read (Elt Ideal) A (ix3 (0 : Fin 1) r k) = A (ix3 a b k) := by
  obtain ⟨f0, f1, f2, f3, f4, f5, f6, f7, f8, f9, f10, f11, f12, f13, f14, f15, f16, f17, f18, f19, f20⟩ := idx_facts t
  show A (((cfg0.win 0).blk t).view.emb (ix3 (0 : Fin 1) r k)) = A _
  refine congrArg A (funext fun x => Fin.ext ?_)
  match x with
  | ⟨0, _⟩ => show win0_0.index t (0 : Fin 3) * 1 + 1 * 0 = a.val; omega
  | ⟨1, _⟩ => show win0_0.index t (1 : Fin 3) * 512 + 1 * r.val = b.val; omega
  | ⟨2, _⟩ => show win0_0.index t (2 : Fin 3) * 256 + 1 * k.val = k.val; omega

/-- The weight and bias operands are whole blocks at block index zero: read through the window they are themselves. -/
theorem read0_1 (A : (⟨S256x256, .bf16⟩ : BufTy).Contents (Elt Ideal)) (t : Fin cfg0.N) (e k : Fin 256) :
    ((cfg0.win 1).blk t).view.read (Elt Ideal) A (ix2 e k) = A (ix2 e k) := by
  obtain ⟨f0, f1, f2, f3, f4, f5, f6, f7, f8, f9, f10, f11, f12, f13, f14, f15, f16, f17, f18, f19, f20⟩ := idx_facts t
  show A (((cfg0.win 1).blk t).view.emb (ix2 e k)) = A _
  refine congrArg A (funext fun x => Fin.ext ?_)
  match x with
  | ⟨0, _⟩ => show win0_1.index t (0 : Fin 2) * 256 + 1 * e.val = e.val; omega
  | ⟨1, _⟩ => show win0_1.index t (1 : Fin 2) * 256 + 1 * k.val = k.val; omega
theorem read0_2 (A : (⟨S256, .f32⟩ : BufTy).Contents (Elt Ideal)) (t : Fin cfg0.N) (e : Fin 256) :
    ((cfg0.win 2).blk t).view.read (Elt Ideal) A (ix1 e) = A (ix1 e) := by
  obtain ⟨f0, f1, f2, f3, f4, f5, f6, f7, f8, f9, f10, f11, f12, f13, f14, f15, f16, f17, f18, f19, f20⟩ := idx_facts t
  show A (((cfg0.win 2).blk t).view.emb (ix1 e)) = A _
  refine congrArg A (funext fun x => Fin.ext ?_)
  match x with
  | ⟨0, _⟩ => show win0_2.index t (0 : Fin 1) * 256 + 1 * e.val = e.val; omega
theorem read0_3 (A : (⟨S256x256, .bf16⟩ : BufTy).Contents (Elt Ideal)) (t : Fin cfg0.N) (e k : Fin 256) :
    ((cfg0.win 3).blk t).view.read (Elt Ideal) A (ix2 e k) = A (ix2 e k) := by
  obtain ⟨f0, f1, f2, f3, f4, f5, f6, f7, f8, f9, f10, f11, f12, f13, f14, f15, f16, f17, f18, f19, f20⟩ := idx_facts t
  show A (((cfg0.win 3).blk t).view.emb (ix2 e k)) = A _
  refine congrArg A (funext fun x => Fin.ext ?_)
  match x with
  | ⟨0, _⟩ => show win0_3.index t (0 : Fin 2) * 256 + 1 * e.val = e.val; omega
  | ⟨1, _⟩ => show win0_3.index t (1 : Fin 2) * 256 + 1 * k.val = k.val; omega
theorem read0_4 (A : (⟨S256, .f32⟩ : BufTy).Contents (Elt Ideal)) (t : Fin cfg0.N) (e : Fin 256) :
    ((cfg0.win 4).blk t).view.read (Elt Ideal) A (ix1 e) = A (ix1 e) := by
  obtain ⟨f0, f1, f2, f3, f4, f5, f6, f7, f8, f9, f10, f11, f12, f13, f14, f15, f16, f17, f18, f19, f20⟩ := idx_facts t
  show A (((cfg0.win 4).blk t).view.emb (ix1 e)) = A _
  refine congrArg A (funext fun x => Fin.ext ?_)
  match x with
  | ⟨0, _⟩ => show win0_4.index t (0 : Fin 1) * 256 + 1 * e.val = e.val; omega
theorem read0_5 (A : (⟨S1x256, .bf16⟩ : BufTy).Contents (Elt Ideal)) (t : Fin cfg0.N) (k : Fin 256) :
    ((cfg0.win 5).blk t).view.read (Elt Ideal) A (ix2 (0 : Fin 1) k) = A (ix2 (0 : Fin 1) k) := by
  obtain ⟨f0, f1, f2, f3, f4, f5, f6, f7, f8, f9, f10, f11, f12, f13, f14, f15, f16, f17, f18, f19, f20⟩ := idx_facts t
  show A (((cfg0.win 5).blk t).view.emb (ix2 (0 : Fin 1) k)) = A _
  refine congrArg A (funext fun x => Fin.ext ?_)
  match x with
  | ⟨0, _⟩ => show win0_5.index t (0 : Fin 2) * 1 + 1 * 0 = 0; omega
  | ⟨1, _⟩ => show win0_5.index t (1 : Fin 2) * 256 + 1 * k.val = k.val; omega
theorem read0_6 (A : (⟨S1, .f32⟩ : BufTy).Contents (Elt Ideal)) (t : Fin cfg0.N) :
    ((cfg0.win 6).blk t).view.read (Elt Ideal) A (ix1 (0 : Fin 1)) = A (ix1 (0 : Fin 1)) := by
  obtain ⟨f0, f1, f2, f3, f4, f5, f6, f7, f8, f9, f10, f11, f12, f13, f14, f15, f16, f17, f18, f19, f20⟩ := idx_facts t
  show A (((cfg0.win 6).blk t).view.emb (ix1 (0 : Fin 1))) = A _
  refine congrArg A (funext fun x => Fin.ext ?_)
  match x with
  | ⟨0, _⟩ => show win0_6.index t (0 : Fin 1) * 1 + 1 * 0 = 0; omega

/-- Entry (0, r, e) of output block `t` of window 7 sits at (batch entry, 512·row block + r, e) of its array. -/
theorem emb0_7 (t : Fin cfg0.N) (r : Fin 512) (e : Fin 256) (a : Fin 8) (b : Fin 2048)
    (ha : a.val = win0_7.index t (0 : Fin 3)) (hb : b.val = win0_7.index t (1 : Fin 3) * 512 + r.val) :
    ((cfg0.win 7).blk t).view.emb (ix3 (0 : Fin 1) r e) = ix3 a b e := by
  obtain ⟨f0, f1, f2, f3, f4, f5, f6, f7, f8, f9, f10, f11, f12, f13, f14, f15, f16, f17, f18, f19, f20⟩ := idx_facts t
  refine funext fun x => Fin.ext ?_
  match x with
  | ⟨0, _⟩ => show win0_7.index t (0 : Fin 3) * 1 + 1 * 0 = a.val; omega
  | ⟨1, _⟩ => show win0_7.index t (1 : Fin 3) * 512 + 1 * r.val = b.val; omega
  | ⟨2, _⟩ => show win0_7.index t (2 : Fin 3) * 256 + 1 * e.val = e.val; omega

/-- What point `t` writes back through window 7 is its block of the projection of the arrays the kernel finds. -/
theorem flushed0_7_eq (c : Dev nD) (t : Fin cfg0.N) :
    (dat0 V c).flushed 7 t = ((cfg0.win 7).blk t).view.read (Elt Ideal)
      (Cert.Spec.proj (V c main_arg0) (V c main_v0) (V c main_arg3)) := by
  show (cfg0.win 7).cut (grid0.coords t) ((dat0 V c).after 7 t) = _
  rw [after0_7]
  unfold out0_7
  rw [View.canon_unit_zero hz3]
  simp only [View.ld_unit_zero (S := S1x512x256) hz3, View.ld_unit_zero (S := S256x256) hz2, View.ld_unit_zero (S := S256) hz1]
  funext j
  obtain ⟨z, r, e, rfl⟩ : ∃ (z : Fin 1) (r : Fin 512) (e : Fin 256), j = ix3 z r e := ⟨j 0, j 1, j 2, eq_ix3 j⟩
  obtain rfl : z = 0 := Subsingleton.elim _ _
  obtain ⟨f0, f1, f2, f3, f4, f5, f6, f7, f8, f9, f10, f11, f12, f13, f14, f15, f16, f17, f18, f19, f20⟩ := idx_facts t
  have ha : win0_7.index t (0 : Fin 3) < 8 := by omega
  have hb : win0_7.index t (1 : Fin 3) * 512 + r.val < 2048 := by have := r.isLt; omega
  refine (Cert.KernelIdeal.PayValue.pay5_apply (iblk0 V c 0 t) (iblk0 V c 1 t) (iblk0 V c 2 t) r e).trans ?_
  show _ = Cert.Spec.proj (V c main_arg0) (V c main_v0) (V c main_arg3) (((cfg0.win 7).blk t).view.emb (ix3 (0 : Fin 1) r e))
  rw [emb0_7 t r e ⟨_, ha⟩ ⟨_, hb⟩ rfl rfl]
  exact proj_of_reads (V c main_arg0) (V c main_v0) (V c main_arg3) (iblk0 V c 0 t) (iblk0 V c 1 t) (iblk0 V c 2 t) r e ⟨_, ha⟩ ⟨_, hb⟩
    (fun k => read0_0 (V c main_arg0) t r k ⟨_, ha⟩ ⟨_, hb⟩ rfl rfl) (fun k => read0_1 (V c main_v0) t e k) (read0_2 (V c main_arg3) t e)

/-- An index of the array is in point `t`'s block iff each coordinate is in the block's range on its axis. -/
theorem mem_blk0_7 (t : Fin cfg0.N) (i : S8x2048x256.Idx) :
    i ∈ ((cfg0.win 7).blk t).view.set ↔ ∀ a : Fin 3, win0_7.index t a * S1x512x256.size a ≤ (i a).val ∧ (i a).val < win0_7.index t a * S1x512x256.size a + S1x512x256.size a := by
  show i ∈ ((View.whole main_v3_0).slice (win0_7.rect t)).set ↔ _
  rw [View.set_slice_whole, Rect.mem_set_unit]
  exact Iff.rfl

/-- The 32 blocks tile the array: row `n` of batch entry `s` is in the block of the point at (s, n / 512). -/
theorem cover0_7 (i : S8x2048x256.Idx) : ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  obtain ⟨f0, f1, f2, f3, f4, f5, f6, f7, f8, f9, f10, f11, f12, f13, f14, f15, f16, f17, f18, f19, f20⟩ := idx_facts t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 256 ≤ (i 2).val ∧ (i 2).val < win0_7.index t (2 : Fin 3) * 256 + 256; omega

/-- So the array ends holding the projection, whole. -/
theorem final0_7 (c : Dev nD) :
    (dat0 V c).arrAt 7 cfg0.N = Cert.Spec.proj (V c main_arg0) (V c main_v0) (V c main_arg3) :=
  (dat0 V c).arrAt_eq_of_cover 7 _ (fun t _ => flushed0_7_eq V c t) cover0_7

/-- Entry (0, r, e) of output block `t` of window 8 sits at (batch entry, 512·row block + r, e) of its array. -/
theorem emb0_8 (t : Fin cfg0.N) (r : Fin 512) (e : Fin 256) (a : Fin 8) (b : Fin 2048)
    (ha : a.val = win0_7.index t (0 : Fin 3)) (hb : b.val = win0_7.index t (1 : Fin 3) * 512 + r.val) :
    ((cfg0.win 8).blk t).view.emb (ix3 (0 : Fin 1) r e) = ix3 a b e := by
  obtain ⟨f0, f1, f2, f3, f4, f5, f6, f7, f8, f9, f10, f11, f12, f13, f14, f15, f16, f17, f18, f19, f20⟩ := idx_facts t
  refine funext fun x => Fin.ext ?_
  match x with
  | ⟨0, _⟩ => show win0_8.index t (0 : Fin 3) * 1 + 1 * 0 = a.val; omega
  | ⟨1, _⟩ => show win0_8.index t (1 : Fin 3) * 512 + 1 * r.val = b.val; omega
  | ⟨2, _⟩ => show win0_8.index t (2 : Fin 3) * 256 + 1 * e.val = e.val; omega

/-- What point `t` writes back through window 8 is its block of the projection of the arrays the kernel finds. -/
theorem flushed0_8_eq (c : Dev nD) (t : Fin cfg0.N) :
    (dat0 V c).flushed 8 t = ((cfg0.win 8).blk t).view.read (Elt Ideal)
      (Cert.Spec.proj (V c main_arg0) (V c main_v1) (V c main_arg5)) := by
  show (cfg0.win 8).cut (grid0.coords t) ((dat0 V c).after 8 t) = _
  rw [after0_8]
  unfold out0_8
  rw [View.canon_unit_zero hz3]
  simp only [View.ld_unit_zero (S := S1x512x256) hz3, View.ld_unit_zero (S := S256x256) hz2, View.ld_unit_zero (S := S256) hz1]
  funext j
  obtain ⟨z, r, e, rfl⟩ : ∃ (z : Fin 1) (r : Fin 512) (e : Fin 256), j = ix3 z r e := ⟨j 0, j 1, j 2, eq_ix3 j⟩
  obtain rfl : z = 0 := Subsingleton.elim _ _
  obtain ⟨f0, f1, f2, f3, f4, f5, f6, f7, f8, f9, f10, f11, f12, f13, f14, f15, f16, f17, f18, f19, f20⟩ := idx_facts t
  have ha : win0_7.index t (0 : Fin 3) < 8 := by omega
  have hb : win0_7.index t (1 : Fin 3) * 512 + r.val < 2048 := by have := r.isLt; omega
  refine (Cert.KernelIdeal.PayValue.pay6_apply (iblk0 V c 0 t) (iblk0 V c 3 t) (iblk0 V c 4 t) r e).trans ?_
  show _ = Cert.Spec.proj (V c main_arg0) (V c main_v1) (V c main_arg5) (((cfg0.win 8).blk t).view.emb (ix3 (0 : Fin 1) r e))
  rw [emb0_8 t r e ⟨_, ha⟩ ⟨_, hb⟩ rfl rfl]
  exact proj_of_reads (V c main_arg0) (V c main_v1) (V c main_arg5) (iblk0 V c 0 t) (iblk0 V c 3 t) (iblk0 V c 4 t) r e ⟨_, ha⟩ ⟨_, hb⟩
    (fun k => read0_0 (V c main_arg0) t r k ⟨_, ha⟩ ⟨_, hb⟩ rfl rfl) (fun k => read0_3 (V c main_v1) t e k) (read0_4 (V c main_arg5) t e)

/-- An index of the array is in point `t`'s block iff each coordinate is in the block's range on its axis. -/
theorem mem_blk0_8 (t : Fin cfg0.N) (i : S8x2048x256.Idx) :
    i ∈ ((cfg0.win 8).blk t).view.set ↔ ∀ a : Fin 3, win0_8.index t a * S1x512x256.size a ≤ (i a).val ∧ (i a).val < win0_8.index t a * S1x512x256.size a + S1x512x256.size a := by
  show i ∈ ((View.whole main_v3_1).slice (win0_8.rect t)).set ↔ _
  rw [View.set_slice_whole, Rect.mem_set_unit]
  exact Iff.rfl

/-- The 32 blocks tile the array: row `n` of batch entry `s` is in the block of the point at (s, n / 512). -/
theorem cover0_8 (i : S8x2048x256.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  obtain ⟨f0, f1, f2, f3, f4, f5, f6, f7, f8, f9, f10, f11, f12, f13, f14, f15, f16, f17, f18, f19, f20⟩ := idx_facts t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 256 ≤ (i 2).val ∧ (i 2).val < win0_8.index t (2 : Fin 3) * 256 + 256; omega

/-- So the array ends holding the projection, whole. -/
theorem final0_8 (c : Dev nD) :
    (dat0 V c).arrAt 8 cfg0.N = Cert.Spec.proj (V c main_arg0) (V c main_v1) (V c main_arg5) :=
  (dat0 V c).arrAt_eq_of_cover 8 _ (fun t _ => flushed0_8_eq V c t) cover0_8

/-- Entry (0, r, 0) of output block `t` of the logit column sits at (batch entry, 512·row block + r, 0). -/
theorem emb0_9 (t : Fin cfg0.N) (r : Fin 512) (a : Fin 8) (b : Fin 2048)
    (ha : a.val = win0_7.index t (0 : Fin 3)) (hb : b.val = win0_7.index t (1 : Fin 3) * 512 + r.val) :
    ((cfg0.win 9).blk t).view.emb (ix3 (0 : Fin 1) r (0 : Fin 1)) = ix3 a b (0 : Fin 1) := by
  obtain ⟨f0, f1, f2, f3, f4, f5, f6, f7, f8, f9, f10, f11, f12, f13, f14, f15, f16, f17, f18, f19, f20⟩ := idx_facts t
  refine funext fun x => Fin.ext ?_
  match x with
  | ⟨0, _⟩ => show win0_9.index t (0 : Fin 3) * 1 + 1 * 0 = a.val; omega
  | ⟨1, _⟩ => show win0_9.index t (1 : Fin 3) * 512 + 1 * r.val = b.val; omega
  | ⟨2, _⟩ => show win0_9.index t (2 : Fin 3) * 1 + 1 * 0 = 0; omega

/-- What point `t` writes back through the logit window is its block of the logit of the arrays the kernel finds. -/
theorem flushed0_9_eq (c : Dev nD) (t : Fin cfg0.N) :
    (dat0 V c).flushed 9 t = ((cfg0.win 9).blk t).view.read (Elt Ideal)
      (Cert.Spec.logit (V c main_arg0) (V c main_v2) (V c main_arg7)) := by
  show (cfg0.win 9).cut (grid0.coords t) ((dat0 V c).after 9 t) = _
  rw [after0_9]
  unfold out0_9
  rw [View.canon_unit_zero hz3]
  simp only [View.ld_unit_zero (S := S1x512x256) hz3, View.ld_unit_zero (S := S1x256) hz2, View.ld_unit_zero (S := S1) hz1]
  funext j
  obtain ⟨z, r, q, rfl⟩ : ∃ (z : Fin 1) (r : Fin 512) (q : Fin 1), j = ix3 z r q := ⟨j 0, j 1, j 2, eq_ix3 j⟩
  obtain rfl : z = 0 := Subsingleton.elim _ _
  obtain rfl : q = 0 := Subsingleton.elim _ _
  obtain ⟨f0, f1, f2, f3, f4, f5, f6, f7, f8, f9, f10, f11, f12, f13, f14, f15, f16, f17, f18, f19, f20⟩ := idx_facts t
  have ha : win0_7.index t (0 : Fin 3) < 8 := by omega
  have hb : win0_7.index t (1 : Fin 3) * 512 + r.val < 2048 := by have := r.isLt; omega
  refine (Cert.KernelIdeal.PayValue.pay14_apply (iblk0 V c 0 t) (iblk0 V c 5 t) (iblk0 V c 6 t) r).trans ?_
  show _ = Cert.Spec.logit (V c main_arg0) (V c main_v2) (V c main_arg7) (((cfg0.win 9).blk t).view.emb (ix3 (0 : Fin 1) r (0 : Fin 1)))
  rw [emb0_9 t r ⟨_, ha⟩ ⟨_, hb⟩ rfl rfl]
  exact logit_of_reads (V c main_arg0) (V c main_v2) (V c main_arg7) (iblk0 V c 0 t) (iblk0 V c 5 t) (iblk0 V c 6 t) r ⟨_, ha⟩ ⟨_, hb⟩
    (fun k => read0_0 (V c main_arg0) t r k ⟨_, ha⟩ ⟨_, hb⟩ rfl rfl) (fun k => read0_5 (V c main_v2) t k) (read0_6 (V c main_arg7) t)

/-- An index of the logit column is in point `t`'s block iff each coordinate is in the block's range on its axis. -/
theorem mem_blk0_9 (t : Fin cfg0.N) (i : S8x2048x1.Idx) :
    i ∈ ((cfg0.win 9).blk t).view.set ↔ ∀ a : Fin 3, win0_9.index t a * S1x512x1.size a ≤ (i a).val ∧ (i a).val < win0_9.index t a * S1x512x1.size a + S1x512x1.size a := by
  show i ∈ ((View.whole main_v3_2).slice (win0_9.rect t)).set ↔ _
  rw [View.set_slice_whole, Rect.mem_set_unit]
  exact Iff.rfl

/-- The 32 blocks tile the logit column. -/
theorem cover0_9 (i : S8x2048x1.Idx) : ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 1 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  obtain ⟨f0, f1, f2, f3, f4, f5, f6, f7, f8, f9, f10, f11, f12, f13, f14, f15, f16, f17, f18, f19, f20⟩ := idx_facts t
  refine ⟨t, flush0_9 t, ?_⟩
  rw [mem_blk0_9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1 ≤ (i 2).val ∧ (i 2).val < win0_9.index t (2 : Fin 3) * 1 + 1; omega

/-- So the logit column ends holding the logit, whole. -/
theorem final0_9 (c : Dev nD) :
    (dat0 V c).arrAt 9 cfg0.N = Cert.Spec.logit (V c main_arg0) (V c main_v2) (V c main_arg7) :=
  (dat0 V c).arrAt_eq_of_cover 9 _ (fun t _ => flushed0_9_eq V c t) cover0_9

end Cert.KernelIdeal.Blocks0

end
-- ==== Proof.Blocks1.lean ====
/-
  The scores kernel's result array, whole. The kernel runs over a grid of 8 × 8 points, row block outer, batch entry
  inner; at point (q, s) it loads the 256 query rows 256q … 256q+255 of batch entry s, takes batch entry s's slab of the
  key array (held whole beside the grid), loads rows 256q … of the mask, and stores one 256 × 2048 block:
  10·tanh of the query rows against all 2048 key rows, -∞ where the mask is 0. Read at an index the stored block is
  the specification's score at (s, 256q + r, j), and the 64 blocks tile the array.
-/
import proofs.«135975_j29901562314767_2_alg».proof.Proof.Gen.KernelIdeal.Frame
import proofs.«135975_j29901562314767_2_alg».proof.Proof.Spec
import proofs.«135975_j29901562314767_2_alg».proof.Proof.Payloads
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps of the second kernel, decided over its 64 grid points (row block outer, batch entry inner): the query
    block and the output block sit at (batch entry, row block); the mask block at the row block; the key array is one
    whole block, and the body's own load takes the batch entry's slab of it. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 3) = 0 ∧ win1_1.index t (1 : Fin 3) = 0 ∧ win1_1.index t (2 : Fin 3) = 0
    ∧ win1_2.index t (0 : Fin 2) = win1_3.index t (1 : Fin 3) ∧ win1_2.index t (1 : Fin 2) = 0
    ∧ k1_off1 (grid1.coords t) (0 : Fin 3) = win1_3.index t (0 : Fin 3) ∧ k1_off1 (grid1.coords t) (1 : Fin 3) = 0 ∧ k1_off1 (grid1.coords t) (2 : Fin 3) = 0
    ∧ win1_3.index t (0 : Fin 3) ≤ 7 ∧ win1_3.index t (1 : Fin 3) ≤ 7 :=
  (by decide +kernel : ∀ t : Fin grid1.N, _)

/-- Every (batch entry, row block) pair is some grid point's. -/
theorem idx_onto : ∀ (q0 : Fin 8) (q1 : Fin 8), ∃ t : Fin cfg1.N, win1_3.index t = ![q0.val, q1.val, 0] :=
  (by decide +kernel : ∀ (q0 : Fin 8) (q1 : Fin 8), ∃ t : Fin grid1.N, win1_3.index t = ![q0.val, q1.val, 0])

/-- If the query rows, the key rows and the mask entries the body reads are those of the arrays `Q`, `K`, `M` at batch
    entry `a` and row `b`, the body's arithmetic at (r, j) is the score of `Q`, `K`, `M` at (a, b, j). -/
theorem scores_of_reads (Q K : (⟨3, ![8, 2048, 256]⟩ : Shape).Idx → EReal) (M : (⟨2, ![2048, 2048]⟩ : Shape).Idx → BitVec 32)
    (v0 : (⟨3, ![1, 256, 256]⟩ : Shape).Idx → EReal) (v3 : (⟨3, ![1, 2048, 256]⟩ : Shape).Idx → EReal)
    (v9 : (⟨2, ![256, 2048]⟩ : Shape).Idx → BitVec 32) (r : Fin 256) (j : Fin 2048) (a : Fin 8) (b : Fin 2048)
    (h0 : ∀ k : Fin 256, v0 (ix3 (0 : Fin 1) r k) = Q (ix3 a b k)) (h1 : ∀ k : Fin 256, v3 (ix3 (0 : Fin 1) j k) = K (ix3 a j k))
    (h2 : v9 (ix2 r j) = M (ix2 b j)) :
    Scalar.select (IntOp.cmpi .eq (v9 (ix2 r j)) 0#32) (Ideal.ofBits .f32 0xFF800000#32)
        (Ideal.ofBits .f32 0x41200000#32 * Ideal.tanh (∑ k : Fin 256, v0 (ix3 (0 : Fin 1) r k) * v3 (ix3 (0 : Fin 1) j k)))
      = Cert.Spec.scores Q K M (ix3 a b j) := by
  unfold Cert.Spec.scores
  rw [h2, Finset.sum_congr rfl fun k _ => (by rw [h0 k, h1 k] : v0 (ix3 (0 : Fin 1) r k) * v3 (ix3 (0 : Fin 1) j k) = Q (ix3 a b k) * K (ix3 a j k))]

section Piece
variable {F : FTy → Type} [FloatOps F]

/-- What the body leaves in the output's staging buffer: its one store covers the buffer, and its payload is the body's
    arithmetic of the query block, the batch entry's slab of the resident keys, and the mask block. -/
theorem out1_eq (c : Dev nD) (i : grid1.Coords) (arg2 : Memref sig .tc .vmem S1x256x256 .bf16) (harg2 : arg2.IsWhole) (arg3 : Memref sig .tc .vmem S8x2048x256 .bf16) (harg3 : arg3.IsWhole) (arg4 : Memref sig .tc .vmem S256x2048 .i32) (harg4 : arg4.IsWhole) (arg5 : Memref sig .tc .vmem S1x256x2048 .f32) (harg5 : arg5.IsWhole)
    (x0 : Vec F S1x256x256 .bf16) (x1 : Vec F S8x2048x256 .bf16) (x2 : Vec F S256x2048 .i32) :
    out1_A_3 c i arg2 harg2 arg3 harg3 arg4 harg4 arg5 harg5 x0 x1 x2
      = k1_pay1 x0 (View.ld x1 (Rect.unit (s := S8x2048x256) (k1_off1 i) S1x2048x256.size (k1_off1_inb i))) x2 := by
  unfold out1_A_3
  rw [View.read_writes_eq_canon _ _ _ (cover1_A_3 c i arg2 harg2 arg3 harg3 arg4 harg4 arg5 harg5 x0 x1 x2)]
  unfold kernelRun1_A
  dsimp only
  rw [View.canon_unit_zero hz3]
  simp only [View.readAt_eq_ld, harg2.read_unread, harg3.read_unread, harg4.read_unread,
    View.ld_unit_zero (S := S1x256x256) hz3, View.ld_unit_zero (S := S256x2048) hz2]

end Piece

/-- Row `r`, feature `k` of the query block at point `t`. -/
theorem read1_0 (A : (⟨S8x2048x256, .bf16⟩ : BufTy).Contents (Elt Ideal)) (t : Fin cfg1.N) (r : Fin 256) (k : Fin 256)
    (a : Fin 8) (b : Fin 2048) (ha : a.val = win1_3.index t (0 : Fin 3)) (hb : b.val = win1_3.index t (1 : Fin 3) * 256 + r.val) :
    ((cfg1.win 0).blk t).view.read (Elt Ideal) A (ix3 (0 : Fin 1) r k) = A (ix3 a b k) := by
  obtain ⟨f0, f1, f2, f3, f4, f5, f6, f7, f8, f9, f10, f11, f12, f13⟩ := idx_facts t
  show A (((cfg1.win 0).blk t).view.emb (ix3 (0 : Fin 1) r k)) = A _
  refine congrArg A (funext fun x => Fin.ext ?_)
  match x with
  | ⟨0, _⟩ => show win1_0.index t (0 : Fin 3) * 1 + 1 * 0 = a.val; omega
  | ⟨1, _⟩ => show win1_0.index t (1 : Fin 3) * 256 + 1 * r.val = b.val; omega
  | ⟨2, _⟩ => show win1_0.index t (2 : Fin 3) * 256 + 1 * k.val = k.val; omega

/-- Key row `j`, feature `k` as the body loads it at point `t`: the batch entry's slab of the resident key array. -/
theorem read1_1 (A : (⟨S8x2048x256, .bf16⟩ : BufTy).Contents (Elt Ideal)) (t : Fin cfg1.N) (j : Fin 2048) (k : Fin 256)
    (a : Fin 8) (ha : a.val = win1_3.index t (0 : Fin 3)) :
    View.ld (((cfg1.win 1).blk t).view.read (Elt Ideal) A)
        (Rect.unit (s := S8x2048x256) (k1_off1 (grid1.coords t)) S1x2048x256.size (k1_off1_inb (grid1.coords t))) (ix3 (0 : Fin 1) j k)
      = A (ix3 a j k) := by
  obtain ⟨f0, f1, f2, f3, f4, f5, f6, f7, f8, f9, f10, f11, f12, f13⟩ := idx_facts t
  show A (((cfg1.win 1).blk t).view.emb ((Rect.unit (s := S8x2048x256) (k1_off1 (grid1.coords t)) S1x2048x256.size (k1_off1_inb (grid1.coords t))).idx (ix3 (0 : Fin 1) j k))) = A _
  refine congrArg A (funext fun x => Fin.ext ?_)
  match x with
  | ⟨0, _⟩ => show win1_1.index t (0 : Fin 3) * 8 + 1 * (k1_off1 (grid1.coords t) (0 : Fin 3) + 1 * 0) = a.val; omega
  | ⟨1, _⟩ => show win1_1.index t (1 : Fin 3) * 2048 + 1 * (k1_off1 (grid1.coords t) (1 : Fin 3) + 1 * j.val) = j.val; omega
  | ⟨2, _⟩ => show win1_1.index t (2 : Fin 3) * 256 + 1 * (k1_off1 (grid1.coords t) (2 : Fin 3) + 1 * k.val) = k.val; omega

/-- Entry (r, j) of the mask block at point `t`. -/
theorem read1_2 (A : (⟨S2048x2048, .i32⟩ : BufTy).Contents (Elt Ideal)) (t : Fin cfg1.N) (r : Fin 256) (j : Fin 2048)
    (b : Fin 2048) (hb : b.val = win1_3.index t (1 : Fin 3) * 256 + r.val) :
    ((cfg1.win 2).blk t).view.read (Elt Ideal) A (ix2 r j) = A (ix2 b j) := by
  obtain ⟨f0, f1, f2, f3, f4, f5, f6, f7, f8, f9, f10, f11, f12, f13⟩ := idx_facts t
  show A (((cfg1.win 2).blk t).view.emb (ix2 r j)) = A _
  refine congrArg A (funext fun x => Fin.ext ?_)
  match x with
  | ⟨0, _⟩ => show win1_2.index t (0 : Fin 2) * 256 + 1 * r.val = b.val; omega
  | ⟨1, _⟩ => show win1_2.index t (1 : Fin 2) * 2048 + 1 * j.val = j.val; omega

/-- Entry (0, r, j) of output block `t` sits at (batch entry, 256·row block + r, j) of the scores array. -/
theorem emb1_3 (t : Fin cfg1.N) (r : Fin 256) (j : Fin 2048) (a : Fin 8) (b : Fin 2048)
    (ha : a.val = win1_3.index t (0 : Fin 3)) (hb : b.val = win1_3.index t (1 : Fin 3) * 256 + r.val) :
    ((cfg1.win 3).blk t).view.emb (ix3 (0 : Fin 1) r j) = ix3 a b j := by
  obtain ⟨f0, f1, f2, f3, f4, f5, f6, f7, f8, f9, f10, f11, f12, f13⟩ := idx_facts t
  refine funext fun x => Fin.ext ?_
  match x with
  | ⟨0, _⟩ => show win1_3.index t (0 : Fin 3) * 1 + 1 * 0 = a.val; omega
  | ⟨1, _⟩ => show win1_3.index t (1 : Fin 3) * 256 + 1 * r.val = b.val; omega
  | ⟨2, _⟩ => show win1_3.index t (2 : Fin 3) * 2048 + 1 * j.val = j.val; omega

/-- What point `t` writes back is its block of the scores of the arrays the kernel finds. -/
theorem flushed1_3_eq (c : Dev nD) (t : Fin cfg1.N) :
    (dat1 V c).flushed 3 t = ((cfg1.win 3).blk t).view.read (Elt Ideal)
      (Cert.Spec.scores (V c main_v3_0) (V c main_v3_1) (V c main_arg1)) := by
  show (cfg1.win 3).cut (grid1.coords t) ((dat1 V c).after 3 t) = _
  rw [after1_3]
  unfold outsAt1
  rw [out1_eq]
  funext y
  obtain ⟨z, r, j, rfl⟩ : ∃ (z : Fin 1) (r : Fin 256) (j : Fin 2048), y = ix3 z r j := ⟨y 0, y 1, y 2, eq_ix3 y⟩
  obtain rfl : z = 0 := Subsingleton.elim _ _
  obtain ⟨f0, f1, f2, f3, f4, f5, f6, f7, f8, f9, f10, f11, f12, f13⟩ := idx_facts t
  have ha : win1_3.index t (0 : Fin 3) < 8 := by omega
  have hb : win1_3.index t (1 : Fin 3) * 256 + r.val < 2048 := by have := r.isLt; omega
  refine (Cert.KernelIdeal.PayValue.pay1_scores_apply (iblk1 V c 0 t)
    (View.ld (iblk1 V c 1 t) (Rect.unit (s := S8x2048x256) (k1_off1 (grid1.coords t)) S1x2048x256.size (k1_off1_inb (grid1.coords t))))
    (iblk1 V c 2 t) r j).trans ?_
  show _ = Cert.Spec.scores (V c main_v3_0) (V c main_v3_1) (V c main_arg1) (((cfg1.win 3).blk t).view.emb (ix3 (0 : Fin 1) r j))
  rw [emb1_3 t r j ⟨_, ha⟩ ⟨_, hb⟩ rfl rfl]
  exact scores_of_reads (V c main_v3_0) (V c main_v3_1) (V c main_arg1) (iblk1 V c 0 t)
    (View.ld (iblk1 V c 1 t) (Rect.unit (s := S8x2048x256) (k1_off1 (grid1.coords t)) S1x2048x256.size (k1_off1_inb (grid1.coords t))))
    (iblk1 V c 2 t) r j ⟨_, ha⟩ ⟨_, hb⟩
    (fun k => read1_0 (V c main_v3_0) t r k ⟨_, ha⟩ ⟨_, hb⟩ rfl rfl) (fun k => read1_1 (V c main_v3_1) t j k ⟨_, ha⟩ rfl)
    (read1_2 (V c main_arg1) t r j ⟨_, hb⟩ rfl)

/-- An index of the scores array is in point `t`'s block iff each coordinate is in the block's range on its axis. -/
theorem mem_blk1_3 (t : Fin cfg1.N) (i : S8x2048x2048.Idx) :
    i ∈ ((cfg1.win 3).blk t).view.set ↔ ∀ a : Fin 3, win1_3.index t a * S1x256x2048.size a ≤ (i a).val ∧ (i a).val < win1_3.index t a * S1x256x2048.size a + S1x256x2048.size a := by
  show i ∈ ((View.whole main_v4).slice (win1_3.rect t)).set ↔ _
  rw [View.set_slice_whole, Rect.mem_set_unit]
  exact Iff.rfl

/-- The 64 blocks tile the scores array: row `n` of batch entry `s` is in the block of the point at (s, n / 256). -/
theorem cover1_3 (i : S8x2048x2048.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  obtain ⟨f0, f1, f2, f3, f4, f5, f6, f7, f8, f9, f10, f11, f12, f13⟩ := idx_facts t
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 2048 ≤ (i 2).val ∧ (i 2).val < win1_3.index t (2 : Fin 3) * 2048 + 2048; omega

/-- So the scores array ends holding the scores of the arrays the second kernel finds, whole. -/
theorem final1_3 (c : Dev nD) :
    (dat1 V c).arrAt 3 cfg1.N = Cert.Spec.scores (V c main_v3_0) (V c main_v3_1) (V c main_arg1) :=
  (dat1 V c).arrAt_eq_of_cover 3 _ (fun t _ => flushed1_3_eq V c t) cover1_3

end Cert.KernelIdeal.Blocks1

end
-- ==== Proof.KernelValue.lean ====
/-
  The two-kernel program's results on the extended reals, as functions of the arguments. The logit column is what the
  first kernel's write-backs leave: the logit of the arrays that kernel finds — the rows `x`, the logit row cast to
  bf16 (the identity here) and the logit bias, all as launched. The scores array is what the second kernel's
  write-backs leave: the scores of the arrays THAT kernel finds — the query and key projections the first kernel left
  (each the projection of `x` with its weights and bias as launched) and the mask as launched.
-/
import proofs.«135975_j29901562314767_2_alg».proof.Proof.KernelRun
import proofs.«135975_j29901562314767_2_alg».proof.Proof.HostSide
import proofs.«135975_j29901562314767_2_alg».proof.Proof.Blocks0
import proofs.«135975_j29901562314767_2_alg».proof.Proof.Blocks1

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The logit column at the last boundary: the logit of the arguments. -/
theorem logit_final (c : Dev nD) :
    W3 m ρ c (Proc.devRef .tc main_v3_2)
      = Cert.Spec.logit (m ((c : Thread nD τ).loc main_arg0)) (m ((c : Thread nD τ).loc main_arg6)) (m ((c : Thread nD τ).loc main_arg7)) := by
  rw [RunValue.last_logit, Blocks0.final0_9 (V1 m ρ) c, HostSide.V1_arg0 m ρ c, HostSide.V1_v2_ideal m ρ c, HostSide.V1_arg7 m ρ c]

/-- The scores array at the last boundary: the scores of the two projections of the arguments, under the mask. -/
theorem scores_final (c : Dev nD) :
    W3 m ρ c (Proc.devRef .tc main_v4)
      = Cert.Spec.scores
          (Cert.Spec.proj (m ((c : Thread nD τ).loc main_arg0)) (m ((c : Thread nD τ).loc main_arg2)) (m ((c : Thread nD τ).loc main_arg3)))
          (Cert.Spec.proj (m ((c : Thread nD τ).loc main_arg0)) (m ((c : Thread nD τ).loc main_arg4)) (m ((c : Thread nD τ).loc main_arg5)))
          (m ((c : Thread nD τ).loc main_arg1)) := by
  rw [RunValue.last_scores, Blocks1.final1_3 (V2 m ρ) c, HostSide.V2_v3_0 m ρ c, HostSide.V2_v3_1 m ρ c, HostSide.V2_arg1 m ρ c,
    Blocks0.final0_7 (V1 m ρ) c, Blocks0.final0_8 (V1 m ρ) c, HostSide.V1_arg0 m ρ c, HostSide.V1_v0_ideal m ρ c,
    HostSide.V1_arg3 m ρ c, HostSide.V1_v1_ideal m ρ c, HostSide.V1_arg5 m ρ c]

/-- The run, read: every weakly fair execution ends without a fault, with the two results at the specification's
    functions of the arguments and the arguments as launched. -/
theorem run : θ_run defs (onTc (τ := τ) (main (F := Ideal))) ⟨m, fun _ => 0, ρ⟩ (fun r => ∀ c : Dev nD,
      r.2.mem ((c.tc : Thread nD τ).loc main_v3_2)
        = Cert.Spec.logit (m ((c : Thread nD τ).loc main_arg0)) (m ((c : Thread nD τ).loc main_arg6)) (m ((c : Thread nD τ).loc main_arg7))
      ∧ r.2.mem ((c.tc : Thread nD τ).loc main_v4)
        = Cert.Spec.scores
          (Cert.Spec.proj (m ((c : Thread nD τ).loc main_arg0)) (m ((c : Thread nD τ).loc main_arg2)) (m ((c : Thread nD τ).loc main_arg3)))
          (Cert.Spec.proj (m ((c : Thread nD τ).loc main_arg0)) (m ((c : Thread nD τ).loc main_arg4)) (m ((c : Thread nD τ).loc main_arg5)))
          (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (logit_final m ρ c), (h c).2.1.trans (scores_final m ρ c), (h c).2.2⟩)
    (RunValue.run_results m ρ)

end Cert.KernelIdeal.KernelValue

end
-- ==== Proof.lean ====
/-
  The certificate: a two-kernel scoring head — two bf16 linear projections and a one-column f32 logit of every row,
  then 10·tanh of the query rows against the key rows with -∞ wherever the mask is 0 — equals its plain jnp reference
  on the extended reals. There a change of float format is the identity, a matrix product into a zero accumulator and
  a lane sum are plain sums over the 256 features, and the host's dot_general is the same sum; so both programs compute
  the SAME three formulas (Proof/Spec.lean): the kernel block by block (Proof/Blocks0.lean, Proof/Blocks1.lean over
  the payloads read at an index, Proof/Payloads.lean, assembled in Proof/KernelValue.lean through the run with its
  results named, Proof/KernelRun.lean, and the host casts, Proof/HostSide.lean), the reference operation by operation
  (Proof/RefIsSpec.lean). No algebraic law is needed beyond reading each side, so the precondition is never opened.
  The three frames are the generated runs; the idealization rewrote nothing, so `preserves` is trivial.
-/
import proofs.«135975_j29901562314767_2_alg».proof.Defs
import proofs.«135975_j29901562314767_2_alg».proof.Proof.Gen.Kernel
import proofs.«135975_j29901562314767_2_alg».proof.Proof.Gen.Kernel.Skeleton
import proofs.«135975_j29901562314767_2_alg».proof.Proof.Gen.Kernel.Launch
import proofs.«135975_j29901562314767_2_alg».proof.Proof.Gen.Kernel.Points
import proofs.«135975_j29901562314767_2_alg».proof.Proof.Gen.Kernel.Frame
import proofs.«135975_j29901562314767_2_alg».proof.Proof.Gen.KernelIdeal
import proofs.«135975_j29901562314767_2_alg».proof.Proof.Gen.KernelIdeal.Skeleton
import proofs.«135975_j29901562314767_2_alg».proof.Proof.Gen.KernelIdeal.Launch
import proofs.«135975_j29901562314767_2_alg».proof.Proof.Gen.KernelIdeal.Points
import proofs.«135975_j29901562314767_2_alg».proof.Proof.Gen.KernelIdeal.Frame
import proofs.«135975_j29901562314767_2_alg».proof.Proof.Gen.ReferenceIdeal
import proofs.«135975_j29901562314767_2_alg».proof.Proof.Gen.Pre_finite_inputs
import proofs.«135975_j29901562314767_2_alg».proof.Proof.Gen.ReferenceIdeal.Run
import proofs.«135975_j29901562314767_2_alg».proof.Proof.Gen.ReferenceIdeal.Read
import proofs.«135975_j29901562314767_2_alg».proof.Proof.RefIsSpec
import proofs.«135975_j29901562314767_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference is a straight line of host operations: its generated run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- On the extended reals both programs end with the logit column at `Spec.logit` and the scores array at
    `Spec.scores` of the two projections, of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.ReferenceIdeal.RefValue.logit_eq,
      (hagree c).1, (hagree c).2.2.2.2.2.2.1, (hagree c).2.2.2.2.2.2.2]
  · rw [Cert.ReferenceIdeal.Read.val_main_v15_eq, Cert.ReferenceIdeal.RefValue.scores_eq,
      (hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
